-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x256 : Shape := ⟨3, ![16, 128, 256]⟩
abbrev S_ : Shape := ⟨0, ![]⟩

class Facts : Prop where
  bcast_S_S16x128x256 : S_.BroadcastsInDim S16x128x256 (![] : Fin 0 → Fin S16x128x256.rank)
  reducesTo_S16x128x256_S_d0_1_2 : S16x128x256.ReducesTo [0, 1, 2] S_
  h_S_ : 0 < S_.numel

variable [Facts]

def fn {F : FTy → Type} [FloatOps F] (main_arg0 : FVec F S16x128x256 .f32) (main_arg1 : FVec F S16x128x256 .f32) : IVec S_ 1 :=
  let main_v0 : FVec F S16x128x256 .f32 := Host.absf main_arg0
  let main_cst : FVec F S_ .f32 := constant S_ .f32 0x7F800000#32
  let main_v1 : FVec F S16x128x256 .f32 := broadcastInDim S16x128x256 ![] bcast_S_S16x128x256 main_cst
  let main_v2 : IVec S16x128x256 1 := cmpf .olt main_v0 main_v1
  let main_c : IVec S_ 1 := constantI S_ 1 1#1
  let main_v3 : IVec S_ 1 := (fun x v => Host.reduce IntOp.andi x v reducesTo_S16x128x256_S_d0_1_2 h_S_) main_v2 main_c
  let main_v4 : FVec F S16x128x256 .f32 := Host.absf main_arg1
  let main_cst_0 : FVec F S_ .f32 := constant S_ .f32 0x7F800000#32
  let main_v5 : FVec F S16x128x256 .f32 := broadcastInDim S16x128x256 ![] bcast_S_S16x128x256 main_cst_0
  let main_v6 : IVec S16x128x256 1 := cmpf .olt main_v4 main_v5
  let main_c_1 : IVec S_ 1 := constantI S_ 1 1#1
  let main_v7 : IVec S_ 1 := (fun x v => Host.reduce IntOp.andi x v reducesTo_S16x128x256_S_d0_1_2 h_S_) main_v6 main_c_1
  let main_v8 : IVec S_ 1 := andi main_v3 main_v7
  main_v8
-- ==== Kernel.lean ====
abbrev S16x128x256 : Shape := ⟨3, ![16, 128, 256]⟩
abbrev S16x16384x512 : Shape := ⟨3, ![16, 16384, 512]⟩
abbrev S1x64x256 : Shape := ⟨3, ![1, 64, 256]⟩
abbrev S1x128x256 : Shape := ⟨3, ![1, 128, 256]⟩
abbrev S1x8192x512 : Shape := ⟨3, ![1, 8192, 512]⟩
abbrev S1x1x256 : Shape := ⟨3, ![1, 1, 256]⟩

abbrev nBuf : Space → Nat
  | .hbm => 3
  | .vmem => 5
  | .smem => 0
  | _ => 0

abbrev bufTy : (tb : Table) → Fin (tcTables nBuf tb) → BufTy
  | .hbm, ⟨0, _⟩ => ⟨S16x128x256, .f32⟩
  | .hbm, ⟨1, _⟩ => ⟨S16x128x256, .f32⟩
  | .hbm, ⟨2, _⟩ => ⟨S16x16384x512, .f32⟩
  | .local _ .vmem, ⟨0, _⟩ => ⟨S1x64x256, .f32⟩
  | .local _ .vmem, ⟨1, _⟩ => ⟨S1x64x256, .f32⟩
  | .local _ .vmem, ⟨2, _⟩ => ⟨S1x128x256, .f32⟩
  | .local _ .vmem, ⟨3, _⟩ => ⟨S1x8192x512, .f32⟩
  | .local _ .vmem, ⟨4, _⟩ => ⟨S1x8192x512, .f32⟩
  | _, _ => ⟨S16x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 2], ![false, false]⟩

@[reducible] def k0_t1_loop : Scf.Loop 32 :=
  let c0_i32 : BitVec 32 := 0#32
  let c64_i32 : BitVec 32 := 64#32
  let v1 : BitVec 32 := Scalar.addi c0_i32 c64_i32
  let c1_i32 : BitVec 32 := 1#32
  ⟨c0_i32, v1, c1_i32⟩
def k0_mult1 (k0_t1 : Fin k0_t1_loop.trips) : BitVec 32 :=
  let c0_i32_4 : BitVec 32 := 0#32
  let c0_i32 : BitVec 32 := 0#32
  let c1_i32 : BitVec 32 := 1#32
  let arg5 : BitVec 32 := Scf.iv c0_i32 c1_i32 k0_t1
  let c1_i32_3 : BitVec 32 := 1#32
  let v2 : BitVec 32 := Scalar.muli arg5 c1_i32_3
  let v3 : BitVec 32 := Scalar.addi c0_i32_4 v2
  let c128_i32 : BitVec 32 := 128#32
  let v4 : BitVec 32 := Scalar.muli v3 c128_i32
  v4
def k0_off1 (k0_t1 : Fin k0_t1_loop.trips) : Fin 3 → Nat :=
  let c0_5 : Index := 0#32
  let c0_i32_4 : BitVec 32 := 0#32
  let c0_i32 : BitVec 32 := 0#32
  let c1_i32 : BitVec 32 := 1#32
  let arg5 : BitVec 32 := Scf.iv c0_i32 c1_i32 k0_t1
  let c1_i32_3 : BitVec 32 := 1#32
  let v2 : BitVec 32 := Scalar.muli arg5 c1_i32_3
  let v3 : BitVec 32 := Scalar.addi c0_i32_4 v2
  let v6 : Index := Scalar.indexCast v3
  let c0_6 : Index := 0#32
  ![0, v6.toNat, 0]
def k0_off2 (k0_t1 : Fin k0_t1_loop.trips) : Fin 3 → Nat :=
  let c0_7 : Index := 0#32
  let c0_i32_4 : BitVec 32 := 0#32
  let c0_i32 : BitVec 32 := 0#32
  let c1_i32 : BitVec 32 := 1#32
  let arg5 : BitVec 32 := Scf.iv c0_i32 c1_i32 k0_t1
  let c1_i32_3 : BitVec 32 := 1#32
  let v2 : BitVec 32 := Scalar.muli arg5 c1_i32_3
  let v3 : BitVec 32 := Scalar.addi c0_i32_4 v2
  let c128_i32 : BitVec 32 := 128#32
  let v4 : BitVec 32 := Scalar.muli v3 c128_i32
  let v5 : BitVec 32 := v4
  let v10 : Index := Scalar.indexCast v5
  let c0_8 : Index := 0#32
  ![0, v10.toNat, 0]
def k0_off3 (k0_t1 : Fin k0_t1_loop.trips) : Fin 3 → Nat :=
  let c0_9 : Index := 0#32
  let c0_i32_4 : BitVec 32 := 0#32
  let c0_i32 : BitVec 32 := 0#32
  let c1_i32 : BitVec 32 := 1#32
  let arg5 : BitVec 32 := Scf.iv c0_i32 c1_i32 k0_t1
  let c1_i32_3 : BitVec 32 := 1#32
  let v2 : BitVec 32 := Scalar.muli arg5 c1_i32_3
  let v3 : BitVec 32 := Scalar.addi c0_i32_4 v2
  let c128_i32 : BitVec 32 := 128#32
  let v4 : BitVec 32 := Scalar.muli v3 c128_i32
  let v5 : BitVec 32 := v4
  let v12 : Index := Scalar.indexCast v5
  let c256 : Index := 256#32
  ![0, v12.toNat, 256]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x8192x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x128x256_S1x128x256_0_0_0 : ∀ a, (![0, 0, 0] : Fin 3 → Nat) a + S1x128x256.size a ≤ S1x128x256.size a
  h_S1x128x256 : 0 < S1x128x256.numel
  h_S1x1x256 : 0 < S1x1x256.numel
  shapeCasts_S1x1x256_S1x1x256 : S1x1x256.ShapeCasts S1x1x256
  broadcasts_S1x1x256_S1x128x256 : S1x1x256.Broadcasts S1x128x256
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S1x1x256.size a ≤ S1x64x256.size a
  k0_off2_inb : ∀ k0_t1 : Fin k0_t1_loop.trips, ∀ a, (k0_off2 k0_t1) a + S1x128x256.size a ≤ S1x8192x512.size a
  k0_off3_inb : ∀ k0_t1 : Fin k0_t1_loop.trips, ∀ a, (k0_off3 k0_t1) a + S1x128x256.size a ≤ S1x8192x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x256.size a ≤ S16x128x256.size a
  hwx0_0 : ∀ i : grid0.Coords, EltTy.bits .f32 = 32 ∨ (Rect.block (s := S16x128x256) S1x64x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128x256.size a ≤ S16x128x256.size a
  hwx0_1 : ∀ i : grid0.Coords, EltTy.bits .f32 = 32 ∨ (Rect.block (s := S16x128x256) S1x128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8192x512.size a ≤ S16x16384x512.size a
  hwx0_2 : ∀ i : grid0.Coords, EltTy.bits .f32 = 32 ∨ (Rect.block (s := S16x16384x512) S1x8192x512.size (cc0_transform_2 i) (hinb0_2 i)).WholeWords (EltTy.packing .f32)

variable [Facts₀]

abbrev win0_0 : Pipeline.Window sig grid0 :=
  Pipeline.Window.ofSpec (Memref.whole main_arg0) S1x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8192x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x128x256 : Shape := ⟨3, ![16, 128, 256]⟩
abbrev S16x128x1x256 : Shape := ⟨4, ![16, 128, 1, 256]⟩
abbrev S16x128x128x256 : Shape := ⟨4, ![16, 128, 128, 256]⟩
abbrev S16x16384x256 : Shape := ⟨3, ![16, 16384, 256]⟩
abbrev S16x1x128x256 : Shape := ⟨4, ![16, 1, 128, 256]⟩
abbrev S16x16384x512 : Shape := ⟨3, ![16, 16384, 512]⟩

abbrev nBuf : Space → Nat
  | .hbm => 9
  | .vmem => 0
  | .smem => 0
  | _ => 0

abbrev bufTy : (tb : Table) → Fin (tcTables nBuf tb) → BufTy
  | .hbm, ⟨0, _⟩ => ⟨S16x128x256, .f32⟩
  | .hbm, ⟨1, _⟩ => ⟨S16x128x256, .f32⟩
  | .hbm, ⟨2, _⟩ => ⟨S16x128x1x256, .f32⟩
  | .hbm, ⟨3, _⟩ => ⟨S16x128x128x256, .f32⟩
  | .hbm, ⟨4, _⟩ => ⟨S16x16384x256, .f32⟩
  | .hbm, ⟨5, _⟩ => ⟨S16x1x128x256, .f32⟩
  | .hbm, ⟨6, _⟩ => ⟨S16x128x128x256, .f32⟩
  | .hbm, ⟨7, _⟩ => ⟨S16x16384x256, .f32⟩
  | .hbm, ⟨8, _⟩ => ⟨S16x16384x512, .f32⟩
  | _, _ => ⟨S16x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]

class Facts₀ : Prop where
  bcast_S16x128x256_S16x128x1x256_0_1_3 : S16x128x256.BroadcastsInDim S16x128x1x256 (![0, 1, 3] : Fin 3 → Fin S16x128x1x256.rank)
  bcast_S16x128x1x256_S16x128x128x256_0_1_2_3 : S16x128x1x256.BroadcastsInDim S16x128x128x256 (![0, 1, 2, 3] : Fin 4 → Fin S16x128x128x256.rank)
  shapeCasts_S16x128x128x256_S16x16384x256 : S16x128x128x256.ShapeCasts S16x16384x256
  bcast_S16x128x256_S16x1x128x256_0_2_3 : S16x128x256.BroadcastsInDim S16x1x128x256 (![0, 2, 3] : Fin 3 → Fin S16x1x128x256.rank)
  bcast_S16x1x128x256_S16x128x128x256_0_1_2_3 : S16x1x128x256.BroadcastsInDim S16x128x128x256 (![0, 1, 2, 3] : Fin 4 → Fin S16x128x128x256.rank)
  concatenates_S16x16384x256_S16x16384x256_S16x16384x512_d2 : Shape.Concatenates [S16x16384x256, S16x16384x256] S16x16384x512 2

variable [Facts₀]

class Facts : Prop extends Facts₀ where

variable [Facts]
-- ==== Proof.PairSpec.lean ====
/-
  The function both programs compute. From two arrays of node features x1, x2 : [16, 128, 256] (batch, node, feature)
  it lists, per batch b, every ORDERED pair (i, j) of nodes at row i·128 + j of a [16, 16384, 512] array, the row being
  x1[b, i, :] followed by x2[b, j, :]:
      out[b, r, k] = x1[b, r / 128, k]          for k < 256,
      out[b, r, k] = x2[b, r % 128, k − 256]    for 256 ≤ k.
  Nothing is computed on the entries: they are only moved, so the statement is over any type of entries.

  The kernel fills the table 8192 rows at a time: one block is the pairs (i, j) of 64 consecutive first nodes i with all
  128 second nodes j of one batch. `blockPairs` is that block as a function of the 64 rows of x1 and the 128 rows of x2
  it is made from, and `blockPairs_of_pairs` says the table restricted to a block is the block's function of the
  restricted inputs.
-/
import Idealize.ShloMosaic.Lib.ValueIdx

namespace Cert.PairSpec

open Idealize.ShloMosaic Idealize.ShloMosaic.ValueIdx

/-- The table of ordered pairs of node rows: row `r` of batch `b` is node `r / 128`'s features from the first array
    followed by node `r % 128`'s features from the second. -/
def pairs {α : Type} (x1 x2 : (⟨3, ![16, 128, 256]⟩ : Shape).Idx → α) : (⟨3, ![16, 16384, 512]⟩ : Shape).Idx → α :=
  fun o =>
    if h : (o 2).val < 256 then
      x1 (ix3 (o 0) ⟨(o 1).val / 128, by have := (o 1).isLt; simp only [Matrix.cons_val_one, Matrix.cons_val_zero] at this; omega⟩ ⟨(o 2).val, h⟩)
    else
      x2 (ix3 (o 0) ⟨(o 1).val % 128, Nat.mod_lt _ (by norm_num)⟩
        ⟨(o 2).val - 256, by have := (o 2).isLt; simp only [Matrix.cons_val_two, Matrix.cons_val_one, Matrix.cons_val_zero, Matrix.tail_cons, Matrix.head_cons] at this; omega⟩)

/-- One block of the table: from 64 node rows `u` of the first array and the 128 node rows `w` of the second (one batch),
    row `r` of the block is `u`'s row `r / 128` followed by `w`'s row `r % 128`. -/
def blockPairs {α : Type} (u : (⟨3, ![1, 64, 256]⟩ : Shape).Idx → α) (w : (⟨3, ![1, 128, 256]⟩ : Shape).Idx → α) :
    (⟨3, ![1, 8192, 512]⟩ : Shape).Idx → α :=
  fun y =>
    if h : (y 2).val < 256 then
      u (ix3 0 ⟨(y 1).val / 128, by have := (y 1).isLt; simp only [Matrix.cons_val_one, Matrix.cons_val_zero] at this; omega⟩ ⟨(y 2).val, h⟩)
    else
      w (ix3 0 ⟨(y 1).val % 128, Nat.mod_lt _ (by norm_num)⟩
        ⟨(y 2).val - 256, by have := (y 2).isLt; simp only [Matrix.cons_val_two, Matrix.cons_val_one, Matrix.cons_val_zero, Matrix.tail_cons, Matrix.head_cons] at this; omega⟩)

end Cert.PairSpec
-- ==== Proof.TripPieces.lean ====
/-
  What the kernel's body stores. The body keeps the 128 rows `w` of the second array in a register and runs 64 trips;
  trip `k` reads row `k` of its block `u` of the first array, repeats it down 128 rows, and stores two slabs into the
  output block: the repeated row into rows 128·k … 128·k + 127, columns 0 … 255, and `w` into the same rows, columns
  256 … 511. Both slabs are restrictions of ONE function of the block's index, `blockPairs u w`: at row r = 128·k + j
  the left half is u[r / 128] = u[k] and the right half is w[r % 128] = w[j].
-/
import proofs.«168613_j71365176590409_2_alg».proof.Proof.Gen.KernelIdeal.Frame
import proofs.«168613_j71365176590409_2_alg».proof.Proof.PairSpec
import Idealize.ShloMosaic.Lib.Pipeline.Value

set_option maxRecDepth 16384

noncomputable section

namespace Cert.KernelIdeal.Pairs

open Cert.KernelIdeal Cert.KernelIdeal.Gen Cert.PairSpec Idealize.ShloMosaic Idealize.ShloMosaic.TcCoe Idealize.SL.Sem
open Idealize.ShloMosaic.ValueIdx

variable {F : FTy → Type} [FloatOps F]

/-- Trip `k`'s three rectangles: the row of `u` it reads, and the left and right slabs of the output block it writes. -/
abbrev rowRect (k : Fin k0_t1_loop.trips) : Rect S1x64x256 := Rect.unit (s := S1x64x256) (k0_off1 k) S1x1x256.size (k0_off1_inb k)
abbrev leftRect (k : Fin k0_t1_loop.trips) : Rect S1x8192x512 := Rect.unit (s := S1x8192x512) (k0_off2 k) S1x128x256.size (k0_off2_inb k)
abbrev rightRect (k : Fin k0_t1_loop.trips) : Rect S1x8192x512 := Rect.unit (s := S1x8192x512) (k0_off3 k) S1x128x256.size (k0_off3_inb k)

/-- The two slabs trip `k` stores, last first: the resident rows `v0` into the right half, the repeated row into the
    left half. -/
theorem tripL_eq (𝒱 : Variants) (c : Dev nD) (bd : Option 𝒱.V) (i : grid0.Coords) (arg2 : Memref sig .tc .vmem S1x64x256 .f32) (harg2 : arg2.IsWhole) (arg3 : Memref sig .tc .vmem S1x128x256 .f32) (harg3 : arg3.IsWhole) (arg4 : Memref sig .tc .vmem S1x8192x512 .f32) (harg4 : arg4.IsWhole) (v0 : Vec F S1x128x256 .f32) (X_arg2 : BufTy.Contents (Elt F) arg2.view.ty) (k : Fin k0_t1_loop.trips) :
    tripL_k0_t1 (F := F) 𝒱 c bd i arg2 harg2 arg3 harg3 arg4 harg4 v0 X_arg2 k
      = [⟨rightRect k, v0⟩,
         ⟨leftRect k,
           k0_pay1 (View.readAt (Elt F) arg2.view (rowRect k).toLoadRect X_arg2)⟩] := by
  unfold tripL_k0_t1 trip_k0_t1
  rfl

/-- The right-half slab of trip `k` is `blockPairs u w` on its rectangle: at (0, 128·k + j, 256 + l) the block
    function reads `w` at (0, j, l). -/
theorem right_slab (u : Vec F S1x64x256 .f32) (w : Vec F S1x128x256 .f32) (k : Fin k0_t1_loop.trips)
    (x : (rightRect k).shape.Idx) :
    w x = blockPairs u w ((rightRect k).emb x) := by
  have o := k0_off3_eq k
  have e0 : (x 0).val < 1 := (x 0).isLt
  have e1 : (x 1).val < 128 := (x 1).isLt
  have e2 : (x 2).val < 256 := (x 2).isLt
  have c1 : (((rightRect k).emb x) 1).val = 128 * k.val + (x 1).val := by
    show k0_off3 k 1 + 1 * (x 1).val = _; rw [o]; show 128 * k.val + 1 * (x 1).val = _; omega
  have c2 : (((rightRect k).emb x) 2).val = 256 + (x 2).val := by
    show k0_off3 k 2 + 1 * (x 2).val = _; rw [o]; show 256 + 1 * (x 2).val = _; omega
  unfold blockPairs
  rw [dif_neg (by rw [c2]; omega)]
  refine congrArg w (funext fun a => Fin.ext ?_)
  match a with
  | ⟨0, _⟩ => show (x 0).val = 0; omega
  | ⟨1, _⟩ => show (x 1).val = (((rightRect k).emb x) 1).val % 128; rw [c1]; omega
  | ⟨2, _⟩ => show (x 2).val = (((rightRect k).emb x) 2).val - 256; rw [c2]; omega

/-- The left-half slab of trip `k` — row `k` of `u` repeated down 128 rows — is `blockPairs u w` on its rectangle:
    at (0, 128·k + j, l) the block function reads `u` at (0, k, l). -/
theorem left_slab (u : Vec F S1x64x256 .f32) (w : Vec F S1x128x256 .f32) (k : Fin k0_t1_loop.trips)
    (x : (leftRect k).shape.Idx) :
    k0_pay1 (View.ld u (rowRect k)) x
      = blockPairs u w ((leftRect k).emb x) := by
  have o1 := k0_off1_eq k
  have o2 := k0_off2_eq k
  have e0 : (x 0).val < 1 := (x 0).isLt
  have e1 : (x 1).val < 128 := (x 1).isLt
  have e2 : (x 2).val < 256 := (x 2).isLt
  have c1 : (((leftRect k).emb x) 1).val = 128 * k.val + (x 1).val := by
    show k0_off2 k 1 + 1 * (x 1).val = _; rw [o2]; show 128 * k.val + 1 * (x 1).val = _; omega
  have c2 : (((leftRect k).emb x) 2).val = (x 2).val := by
    show k0_off2 k 2 + 1 * (x 2).val = _; rw [o2]; show 0 + 1 * (x 2).val = _; omega
  unfold blockPairs k0_pay1
  rw [dif_pos (by rw [c2]; exact e2)]
  rw [shapeCast_self]
  rw [broadcastTo_apply _ broadcasts_S1x1x256_S1x128x256 x (ix3 (0 : Fin 1) (0 : Fin 1) ⟨(x 2).val, e2⟩) (fun a => by
    match a with
    | ⟨0, _⟩ => rfl
    | ⟨1, _⟩ => rfl
    | ⟨2, _⟩ => rfl)]
  show u ((rowRect k).emb (ix3 (0 : Fin 1) (0 : Fin 1) ⟨(x 2).val, e2⟩)) = _
  refine congrArg u (funext fun a => Fin.ext ?_)
  match a with
  | ⟨0, _⟩ => show k0_off1 k 0 + 1 * 0 = 0; rw [o1]; rfl
  | ⟨1, _⟩ => show k0_off1 k 1 + 1 * 0 = (((leftRect k).emb x) 1).val / 128; rw [c1, o1]; show k.val + 1 * 0 = _; omega
  | ⟨2, _⟩ => show k0_off1 k 2 + 1 * (x 2).val = (((leftRect k).emb x) 2).val; rw [c2, o1]; show 0 + 1 * (x 2).val = _; omega

end Cert.KernelIdeal.Pairs

end
-- ==== Proof.BlockValue.lean ====
/-
  What one grid point leaves in the output's block. The body's 64 trips store 128 slabs; every slab is a restriction of
  `blockPairs u w` (u the point's 64 rows of the first array, w the 128 rows of the second), and together they tile the
  8192 × 512 block, so the block read back after the body is `blockPairs u w` — whatever it held before.
-/
import proofs.«168613_j71365176590409_2_alg».proof.Proof.TripPieces

set_option maxRecDepth 16384

noncomputable section

namespace Cert.KernelIdeal.Pairs

open Cert.KernelIdeal Cert.KernelIdeal.Gen Cert.PairSpec Idealize.ShloMosaic Idealize.ShloMosaic.TcCoe Idealize.SL.Sem
open Idealize.ShloMosaic.ValueIdx

variable {F : FTy → Type} [FloatOps F]

/-- Every slab the first `n` trips store is `blockPairs u w` on its rectangle, when the register holds `w` and the
    first array's staging buffer reads `u`. By induction on the trips: trip `k` adds its two slabs. -/
theorem slabs_restrict (𝒱 : Variants) (c : Dev nD) (bd : Option 𝒱.V) (i : grid0.Coords) (arg2 : Memref sig .tc .vmem S1x64x256 .f32) (harg2 : arg2.IsWhole) (arg3 : Memref sig .tc .vmem S1x128x256 .f32) (harg3 : arg3.IsWhole) (arg4 : Memref sig .tc .vmem S1x8192x512 .f32) (harg4 : arg4.IsWhole)
    (u : Vec F S1x64x256 .f32) (w : Vec F S1x128x256 .f32) :
    ∀ (n : ℕ), ∀ p ∈ pb_k0_t1 (F := F) 𝒱 c bd i arg2 harg2 arg3 harg3 arg4 harg4 w (harg2.unread u) n,
      ∀ x : p.1.shape.Idx, p.2 x = blockPairs u w (p.1.emb x)
  | 0 => fun p hp => by rw [pb_k0_t1.eq_1] at hp; exact absurd hp List.not_mem_nil
  | n + 1 => fun p hp => by
    rw [pb_k0_t1.eq_2] at hp
    unfold pb_k0_t1Step at hp
    by_cases hn : n < k0_t1_loop.trips
    · rw [dif_pos hn, tripL_eq, List.mem_append] at hp
      rcases hp with hp | hp
      · rcases List.mem_cons.mp hp with rfl | hp
        · exact fun x => right_slab u w ⟨n, hn⟩ x
        · rcases List.mem_cons.mp hp with rfl | hp
          · intro x
            show k0_pay1 (View.readAt (Elt F) arg2.view (rowRect ⟨n, hn⟩).toLoadRect (harg2.unread u)) x = _
            rw [View.readAt_eq_ld, harg2.read_unread]
            exact left_slab u w ⟨n, hn⟩ x
          · exact absurd hp List.not_mem_nil
      · exact slabs_restrict 𝒱 c bd i arg2 harg2 arg3 harg3 arg4 harg4 u w n p hp
    · rw [dif_neg hn] at hp
      exact slabs_restrict 𝒱 c bd i arg2 harg2 arg3 harg3 arg4 harg4 u w n p hp

theorem zeros3 : (![0, 0, 0] : Fin 3 → Nat) = fun _ => 0 := funext fun a => by fin_cases a <;> rfl

/-- The slabs the body's run stores are those of its 64 trips, with the register holding the whole staging buffer of
    the second array. -/
theorem run_slabs (c : Dev nD) (i : grid0.Coords) (arg2 : Memref sig .tc .vmem S1x64x256 .f32) (harg2 : arg2.IsWhole) (arg3 : Memref sig .tc .vmem S1x128x256 .f32) (harg3 : arg3.IsWhole) (arg4 : Memref sig .tc .vmem S1x8192x512 .f32) (harg4 : arg4.IsWhole)
    (u : Vec F S1x64x256 .f32) (w : Vec F S1x128x256 .f32) :
    (kernelRun0_A c i arg2 harg2 arg3 harg3 arg4 harg4 u w).1
      = pb_k0_t1 (F := F) Variants.none c none i arg2 harg2 arg3 harg3 arg4 harg4 w (harg2.unread u) k0_t1_loop.trips := by
  unfold kernelRun0_A
  dsimp only
  rw [View.readAt_eq_ld, harg3.read_unread, View.ld_unit_zero (S := S1x128x256) zeros3]

/-- THE BLOCK after the body at any point: `blockPairs` of the two input blocks. -/
theorem block_eq (c : Dev nD) (i : grid0.Coords) (arg2 : Memref sig .tc .vmem S1x64x256 .f32) (harg2 : arg2.IsWhole) (arg3 : Memref sig .tc .vmem S1x128x256 .f32) (harg3 : arg3.IsWhole) (arg4 : Memref sig .tc .vmem S1x8192x512 .f32) (harg4 : arg4.IsWhole)
    (u : Vec F S1x64x256 .f32) (w : Vec F S1x128x256 .f32) :
    out0_A_2 c i arg2 harg2 arg3 harg3 arg4 harg4 u w = blockPairs u w := by
  unfold out0_A_2
  rw [View.read_writes_eq_canon _ _ _ (cover0_A_2 c i arg2 harg2 arg3 harg3 arg4 harg4 u w)]
  funext y
  refine View.canon_apply_of_pieces (blockPairs u w) _ ?_ y (cover0_A_2 c i arg2 harg2 arg3 harg3 arg4 harg4 u w y)
  rw [run_slabs]
  exact slabs_restrict Variants.none c none i arg2 harg2 arg3 harg3 arg4 harg4 u w _

end Cert.KernelIdeal.Pairs

end
-- ==== Proof.ArrayValue.lean ====
/-
  From blocks to the array. Grid point (b, s) — batch b, s ∈ {0, 1} — stages rows 64·s … 64·s + 63 of batch b of the
  first array and all 128 rows of batch b of the second, and writes back rows 8192·s … 8192·s + 8191 of batch b of the
  output. Row 8192·s + r' of the output pairs first node (8192·s + r') / 128 = 64·s + r' / 128 with second node
  r' % 128, so the block the body leaves (`blockPairs` of the staged rows) is the table `pairs` of the whole arrays
  read through the block; the 32 blocks tile the output, so the output ends as `pairs` of the two argument arrays.
-/
import proofs.«168613_j71365176590409_2_alg».proof.Proof.BlockValue
import proofs.«168613_j71365176590409_2_alg».proof.Proof.Gen.KernelIdeal.Value

set_option maxRecDepth 16384

noncomputable section

namespace Cert.KernelIdeal.Pairs

open Cert.KernelIdeal Cert.KernelIdeal.Gen Cert.PairSpec Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ) (ρ : Dev nD → PrngReg)

/-- The three windows' block indices at a grid point, decided over the 32 points: the first array's and the output's
    blocks move together (batch, half), the second array's block follows the batch only, and nothing moves along the
    feature axis. -/
theorem block_indices : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (0 : Fin 3) ≤ 15 ∧ win0_2.index t (1 : Fin 3) ≤ 1 ∧ win0_2.index t (2 : Fin 3) = 0 :=
  (by decide +kernel : ∀ t : Fin grid0.N, _)

/-- Every (batch, half) is some grid point's output block. -/
theorem block_onto : ∀ (q0 : Fin 16) (q1 : Fin 2), ∃ t : Fin cfg0.N, win0_2.index t = ![q0.val, q1.val, 0] :=
  (by decide +kernel : ∀ (q0 : Fin 16) (q1 : Fin 2), ∃ t : Fin grid0.N, win0_2.index t = ![q0.val, q1.val, 0])

/-- WHAT POINT `t` WRITES BACK is block `t` of the table of pairs of the two argument arrays. -/
theorem flushed_eq (c : Dev nD) (t : Fin cfg0.N) :
    (dats m 0 c).flushed 2 t = ((cfg0.win 2).blk t).view.read (Elt F) (pairs (V m c main_arg0) (V m c main_arg1)) := by
  rw [Cert.KernelIdeal.Value.flushed2_A, block_eq]
  obtain ⟨a0, a1, a2, b0, b1, b2, c0, c1, c2⟩ := block_indices t
  funext j
  have j0 : (j 0).val < 1 := (j 0).isLt
  have j1 : (j 1).val < 8192 := (j 1).isLt
  have j2 : (j 2).val < 512 := (j 2).isLt
  have k0 : ((((cfg0.win 2).blk t).view.emb j) 0).val = win0_2.index t (0 : Fin 3) * 1 + 1 * (j 0).val := rfl
  have k1 : ((((cfg0.win 2).blk t).view.emb j) 1).val = win0_2.index t (1 : Fin 3) * 8192 + 1 * (j 1).val := rfl
  have k2 : ((((cfg0.win 2).blk t).view.emb j) 2).val = win0_2.index t (2 : Fin 3) * 512 + 1 * (j 2).val := rfl
  show blockPairs (iblk m c 0 t) (iblk m c 1 t) j = pairs (V m c main_arg0) (V m c main_arg1) (((cfg0.win 2).blk t).view.emb j)
  unfold blockPairs pairs
  by_cases h : (j 2).val < 256
  · rw [dif_pos h, dif_pos (by rw [k2]; omega)]
    show V m c main_arg0 (((cfg0.win 0).blk t).view.emb _) = _
    refine congrArg (V m c main_arg0) (funext fun a => Fin.ext ?_)
    match a with
    | ⟨0, _⟩ => show win0_0.index t (0 : Fin 3) * 1 + 1 * 0 = ((((cfg0.win 2).blk t).view.emb j) 0).val; rw [k0]; omega
    | ⟨1, _⟩ => show win0_0.index t (1 : Fin 3) * 64 + 1 * ((j 1).val / 128) = ((((cfg0.win 2).blk t).view.emb j) 1).val / 128; rw [k1]; omega
    | ⟨2, _⟩ => show win0_0.index t (2 : Fin 3) * 256 + 1 * (j 2).val = ((((cfg0.win 2).blk t).view.emb j) 2).val; rw [k2]; omega
  · rw [dif_neg h, dif_neg (by rw [k2]; omega)]
    show V m c main_arg1 (((cfg0.win 1).blk t).view.emb _) = _
    refine congrArg (V m c main_arg1) (funext fun a => Fin.ext ?_)
    match a with
    | ⟨0, _⟩ => show win0_1.index t (0 : Fin 3) * 1 + 1 * 0 = ((((cfg0.win 2).blk t).view.emb j) 0).val; rw [k0]; omega
    | ⟨1, _⟩ => show win0_1.index t (1 : Fin 3) * 128 + 1 * ((j 1).val % 128) = ((((cfg0.win 2).blk t).view.emb j) 1).val % 128; rw [k1]; omega
    | ⟨2, _⟩ => show win0_1.index t (2 : Fin 3) * 256 + 1 * ((j 2).val - 256) = ((((cfg0.win 2).blk t).view.emb j) 2).val - 256; rw [k2]; omega

/-- An index of the output is in point `t`'s block iff each coordinate is in the block's range on its axis. -/
theorem mem_block (t : Fin cfg0.N) (i : S16x16384x512.Idx) :
    i ∈ ((cfg0.win 2).blk t).view.set ↔ ∀ a : Fin 3, win0_2.index t a * S1x8192x512.size a ≤ (i a).val ∧ (i a).val < win0_2.index t a * S1x8192x512.size a + S1x8192x512.size a := by
  show i ∈ ((View.whole main_v0).slice (win0_2.rect t)).set ↔ _
  rw [View.set_slice_whole, Rect.mem_set_unit]
  exact Iff.rfl

/-- The 32 blocks cover the output: index (b, r, l) is in the block of the point with batch b and half r / 8192. -/
theorem blocks_cover (i : S16x16384x512.Idx) :
    ∃ t : Fin cfg0.N, (cfg0.win 2).flush t = true ∧ i ∈ ((cfg0.win 2).blk t).view.set := by
  have hi0 : (i 0).val < 16 := (i 0).isLt
  have hi1 : (i 1).val < 16384 := (i 1).isLt
  have hi2 : (i 2).val < 512 := (i 2).isLt
  obtain ⟨t, ht⟩ := block_onto ⟨(i 0).val, hi0⟩ ⟨(i 1).val / 8192, by omega⟩
  have q0 : win0_2.index t (0 : Fin 3) = (i 0).val := congrFun ht 0
  have q1 : win0_2.index t (1 : Fin 3) = (i 1).val / 8192 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 8192 ≤ (i 1).val ∧ (i 1).val < win0_2.index t (1 : Fin 3) * 8192 + 8192; omega
  | ⟨2, _⟩ => show win0_2.index t (2 : Fin 3) * 512 ≤ (i 2).val ∧ (i 2).val < win0_2.index t (2 : Fin 3) * 512 + 512; omega

/-- THE OUTPUT ARRAY after the run: the table of pairs of the two argument arrays as launched. -/
theorem output_eq (c : Dev nD) :
    (dats m 0 c).arrAt 2 cfg0.N = pairs (m ((c : Thread nD τ).loc main_arg0)) (m ((c : Thread nD τ).loc main_arg1)) :=
  (dats m 0 c).arrAt_eq_of_cover 2 (pairs (V m c main_arg0) (V m c main_arg1)) (fun t _ => flushed_eq m c t) blocks_cover

/-- The kernel's run with its result named: every weakly fair execution terminates with the output holding the table of
    pairs of the argument arrays, the arguments unchanged. -/
theorem run : θ_run defs (onTc (τ := τ) (main (F := F))) ⟨m, fun _ => 0, ρ⟩ fun r => ∀ c : Dev nD,
      r.2.mem ((c : Thread nD τ).loc main_v0) = pairs (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (output_eq m c), (h c).2⟩) (Cert.KernelIdeal.Value.run_blocks m ρ)

end Cert.KernelIdeal.Pairs

end
-- ==== Proof.RefPairs.lean ====
/-
  The reference computes the same table. It lays the first array out as [16, 128, 1, 256], repeats it along the new
  third axis to [16, 128, 128, 256] and flattens the two node axes to 16384 rows — row r is first node r / 128 —; lays
  the second out as [16, 1, 128, 256], repeats it along the new second axis and flattens the same way — row r is
  second node r % 128 —; and joins the two along the feature axis. Read at an index (b, r, l): for l < 256 the first
  piece at (b, r, l), which is the first array at (b, r / 128, l); otherwise the second piece at (b, r, l − 256), which
  is the second array at (b, r % 128, l − 256).
-/
import proofs.«168613_j71365176590409_2_alg».proof.Proof.Gen.ReferenceIdeal.Read
import proofs.«168613_j71365176590409_2_alg».proof.Proof.PairSpec

noncomputable section

namespace Cert.ReferenceIdeal.Pairs

open Cert.ReferenceIdeal Cert.ReferenceIdeal.Gen Cert.ReferenceIdeal.Read Cert.PairSpec Idealize.ShloMosaic
open Idealize.ShloMosaic.ValueIdx

variable {F : FTy → Type} [FloatOps F]

/-- The flattened repeat of the first array at row `r` is first node `r / 128`. -/
theorem first_rows (x0 : (⟨S16x128x256, .f32⟩ : BufTy).Contents (Elt F)) (b : Fin 16) (r : Fin 16384) (l : Fin 256) :
    val_main_v2 (F := F) x0 (ix3 b r l) = x0 (ix3 b ⟨r.val / 128, by have := r.isLt; omega⟩ l) := by
  rw [val_main_v2_apply, val_main_v1_apply, val_main_v0_apply]
  have hb := b.isLt; have hr := r.isLt; have hl := l.isLt
  refine congrArg x0 (funext fun a => Fin.ext ?_)
  match a with
  | ⟨0, _⟩ => show ((b.val * 16384 + r.val) * 256 + l.val) / 4194304 = b.val; omega
  | ⟨1, _⟩ => show ((b.val * 16384 + r.val) * 256 + l.val) / 32768 % 128 = r.val / 128; omega
  | ⟨2, _⟩ => show ((b.val * 16384 + r.val) * 256 + l.val) % 256 = l.val; omega

/-- The flattened repeat of the second array at row `r` is second node `r % 128`. -/
theorem second_rows (x1 : (⟨S16x128x256, .f32⟩ : BufTy).Contents (Elt F)) (b : Fin 16) (r : Fin 16384) (l : Fin 256) :
    val_main_v5 (F := F) x1 (ix3 b r l) = x1 (ix3 b ⟨r.val % 128, Nat.mod_lt _ (by norm_num)⟩ l) := by
  rw [val_main_v5_apply, val_main_v4_apply, val_main_v3_apply]
  have hb := b.isLt; have hr := r.isLt; have hl := l.isLt
  refine congrArg x1 (funext fun a => Fin.ext ?_)
  match a with
  | ⟨0, _⟩ => show ((b.val * 16384 + r.val) * 256 + l.val) / 4194304 = b.val; omega
  | ⟨1, _⟩ => show ((b.val * 16384 + r.val) * 256 + l.val) / 256 % 128 = r.val % 128; omega
  | ⟨2, _⟩ => show ((b.val * 16384 + r.val) * 256 + l.val) % 256 = l.val; omega

/-- THE REFERENCE'S RESULT is the table of pairs of its two arguments. -/
theorem result_eq (x0 x1 : (⟨S16x128x256, .f32⟩ : BufTy).Contents (Elt F)) :
    val_main_v6 (F := F) x0 x1 = pairs x0 x1 := by
  funext o
  have o0 : (o 0).val < 16 := (o 0).isLt
  have o1 : (o 1).val < 16384 := (o 1).isLt
  have o2 : (o 2).val < 512 := (o 2).isLt
  unfold val_main_v6 pairs
  by_cases h : (o 2).val < 256
  · rw [dif_pos h]
    rw [concatenate_pair_apply_left (t := S16x16384x512) (s₁ := S16x16384x256) (s₂ := S16x16384x256) (2 : Fin 3) _ _ concatenates_S16x16384x256_S16x16384x256_S16x16384x512_d2 o rfl
      (ix3 (⟨(o 0).val, o0⟩ : Fin 16) (⟨(o 1).val, o1⟩ : Fin 16384) (⟨(o 2).val, h⟩ : Fin 256) : S16x16384x256.Idx) (fun a => by
        match a with
        | ⟨0, _⟩ => rfl
        | ⟨1, _⟩ => rfl
        | ⟨2, _⟩ => rfl)]
    exact first_rows x0 _ _ _
  · rw [dif_neg h]
    rw [concatenate_pair_apply_right (t := S16x16384x512) (s₁ := S16x16384x256) (s₂ := S16x16384x256) (2 : Fin 3) _ _ concatenates_S16x16384x256_S16x16384x256_S16x16384x512_d2 o rfl rfl
      (ix3 (⟨(o 0).val, o0⟩ : Fin 16) (⟨(o 1).val, o1⟩ : Fin 16384) (⟨(o 2).val - 256, by omega⟩ : Fin 256) : S16x16384x256.Idx) (fun a ha => by
        match a with
        | ⟨0, _⟩ => rfl
        | ⟨1, _⟩ => rfl
        | ⟨2, _⟩ => exact absurd rfl ha) (by show (o 2).val - 256 + 256 = (o 2).val; omega)]
    exact second_rows x1 _ _ _

end Cert.ReferenceIdeal.Pairs

end
-- ==== Proof.lean ====
/-
  The kernel lists, for each of 16 batches, every ordered pair (i, j) of 128 nodes: row i·128 + j of the output is node
  i's 256 features from the first argument followed by node j's 256 features from the second. Its reference builds the
  same table by repeating each array along a new axis, flattening, and joining along the feature axis. No entry is ever
  computed on — both programs only move entries — so the two results agree at every index for ANY entries, and the
  precondition (finite inputs) is never opened.

  The modules: Proof/PairSpec.lean states the table (`pairs`) and one 8192-row block of it (`blockPairs`);
  Proof/TripPieces.lean shows the two slabs a trip of the body's loop stores are restrictions of the block function;
  Proof/BlockValue.lean collects the 64 trips' slabs, which tile the block; Proof/ArrayValue.lean reads the block through
  the grid (batch, half) and tiles the output with the 32 blocks; Proof/RefPairs.lean reads the reference's
  repeat–flatten–join at an index. Here the five claims are assembled: the three runs terminate with their arguments
  unchanged (the kernel's two by the frame of its pipeline, the reference's by its run with the result dropped), the
  idealization rewrote nothing, and the two idealized programs end holding the same table.
-/
import proofs.«168613_j71365176590409_2_alg».proof.Defs
import proofs.«168613_j71365176590409_2_alg».proof.Proof.Gen.Kernel
import proofs.«168613_j71365176590409_2_alg».proof.Proof.Gen.Kernel.Frame
import proofs.«168613_j71365176590409_2_alg».proof.Proof.Gen.KernelIdeal
import proofs.«168613_j71365176590409_2_alg».proof.Proof.Gen.KernelIdeal.Frame
import proofs.«168613_j71365176590409_2_alg».proof.Proof.Gen.KernelIdeal.Value
import proofs.«168613_j71365176590409_2_alg».proof.Proof.Gen.ReferenceIdeal
import proofs.«168613_j71365176590409_2_alg».proof.Proof.Gen.ReferenceIdeal.Run
import proofs.«168613_j71365176590409_2_alg».proof.Proof.Gen.ReferenceIdeal.Read
import proofs.«168613_j71365176590409_2_alg».proof.Proof.Gen.Pre_finite_inputs
import proofs.«168613_j71365176590409_2_alg».proof.Proof.ArrayValue
import proofs.«168613_j71365176590409_2_alg».proof.Proof.RefPairs
import Idealize.ShloMosaic.Adequacy
import Idealize.ShloMosaic.Init

noncomputable section

namespace Cert.Proof

open Idealize.ShloMosaic Idealize.SL.Sem

/-- The word-level kernel terminates, faults nowhere and leaves its two arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is seven host operations in a row: it terminates with its arguments untouched. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs, from memories that agree on the two arguments, end with the table of ordered pairs of the
    arguments' rows: the kernel block by block, the reference by its repeat, flatten and join. -/
theorem algebraic : Cert.algebraic_KernelIdeal_ReferenceIdeal := by
  intro m ρ m' ρ' _ hagree
  refine ⟨_, Cert.KernelIdeal.Pairs.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.Pairs.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
